-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x27x512x512 : Shape := ⟨4, ![32, 27, 512, 512]⟩
abbrev S1x3x256x512 : Shape := ⟨4, ![1, 3, 256, 512]⟩
abbrev S1x27x256x512 : Shape := ⟨4, ![1, 27, 256, 512]⟩
abbrev S3x256x512 : Shape := ⟨3, ![3, 256, 512]⟩
abbrev S1x256x512 : Shape := ⟨3, ![1, 256, 512]⟩
abbrev S256x512 : Shape := ⟨2, ![256, 512]⟩
abbrev S1x1x256x512 : Shape := ⟨4, ![1, 1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S32x3x512x512, .f32⟩
  | .hbm, ⟨1, _⟩ => ⟨S32x27x512x512, .f32⟩
  | .local _ .vmem, ⟨0, _⟩ => ⟨S1x3x256x512, .f32⟩
  | .local _ .vmem, ⟨1, _⟩ => ⟨S1x3x256x512, .f32⟩
  | .local _ .vmem, ⟨2, _⟩ => ⟨S1x27x256x512, .f32⟩
  | .local _ .vmem, ⟨3, _⟩ => ⟨S1x27x256x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x27x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x3x256x512_S1x3x256x512_0_0_0_0 : ∀ a, (![0, 0, 0, 0] : Fin 4 → Nat) a + S1x3x256x512.size a ≤ S1x3x256x512.size a
  h_S1x3x256x512 : 0 < S1x3x256x512.numel
  shapeCasts_S1x3x256x512_S3x256x512 : S1x3x256x512.ShapeCasts S3x256x512
  inb_S1x27x256x512_S1x3x256x512_0_0_0_0 : ∀ a, (![0, 0, 0, 0] : Fin 4 → Nat) a + S1x3x256x512.size a ≤ S1x27x256x512.size a
  shapeCasts_S3x256x512_S1x3x256x512 : S3x256x512.ShapeCasts S1x3x256x512
  inb_S1x27x256x512_S1x3x256x512_0_3_0_0 : ∀ a, (![0, 3, 0, 0] : Fin 4 → Nat) a + S1x3x256x512.size a ≤ S1x27x256x512.size a
  inb_S1x27x256x512_S1x3x256x512_0_6_0_0 : ∀ a, (![0, 6, 0, 0] : Fin 4 → Nat) a + S1x3x256x512.size a ≤ S1x27x256x512.size a
  slices_S3x256x512_o0_0_0_S1x256x512 : S3x256x512.Slices ![0, 0, 0] S1x256x512
  shapeCasts_S1x256x512_S256x512 : S1x256x512.ShapeCasts S256x512
  inb_S1x27x256x512_S1x1x256x512_0_9_0_0 : ∀ a, (![0, 9, 0, 0] : Fin 4 → Nat) a + S1x1x256x512.size a ≤ S1x27x256x512.size a
  h_S1x1x256x512 : 0 < S1x1x256x512.numel
  shapeCasts_S1x1x256x512_S256x512 : S1x1x256x512.ShapeCasts S256x512
  shapeCasts_S256x512_S1x1x256x512 : S256x512.ShapeCasts S1x1x256x512
  inb_S1x27x256x512_S1x1x256x512_0_10_0_0 : ∀ a, (![0, 10, 0, 0] : Fin 4 → Nat) a + S1x1x256x512.size a ≤ S1x27x256x512.size a
  inb_S1x27x256x512_S1x1x256x512_0_11_0_0 : ∀ a, (![0, 11, 0, 0] : Fin 4 → Nat) a + S1x1x256x512.size a ≤ S1x27x256x512.size a
  slices_S3x256x512_o1_0_0_S1x256x512 : S3x256x512.Slices ![1, 0, 0] S1x256x512
  inb_S1x27x256x512_S1x1x256x512_0_12_0_0 : ∀ a, (![0, 12, 0, 0] : Fin 4 → Nat) a + S1x1x256x512.size a ≤ S1x27x256x512.size a
  inb_S1x27x256x512_S1x1x256x512_0_13_0_0 : ∀ a, (![0, 13, 0, 0] : Fin 4 → Nat) a + S1x1x256x512.size a ≤ S1x27x256x512.size a
  inb_S1x27x256x512_S1x1x256x512_0_14_0_0 : ∀ a, (![0, 14, 0, 0] : Fin 4 → Nat) a + S1x1x256x512.size a ≤ S1x27x256x512.size a
  slices_S3x256x512_o2_0_0_S1x256x512 : S3x256x512.Slices ![2, 0, 0] S1x256x512
  inb_S1x27x256x512_S1x1x256x512_0_15_0_0 : ∀ a, (![0, 15, 0, 0] : Fin 4 → Nat) a + S1x1x256x512.size a ≤ S1x27x256x512.size a
  inb_S1x27x256x512_S1x1x256x512_0_16_0_0 : ∀ a, (![0, 16, 0, 0] : Fin 4 → Nat) a + S1x1x256x512.size a ≤ S1x27x256x512.size a
  inb_S1x27x256x512_S1x1x256x512_0_17_0_0 : ∀ a, (![0, 17, 0, 0] : Fin 4 → Nat) a + S1x1x256x512.size a ≤ S1x27x256x512.size a
  inb_S1x27x256x512_S1x1x256x512_0_18_0_0 : ∀ a, (![0, 18, 0, 0] : Fin 4 → Nat) a + S1x1x256x512.size a ≤ S1x27x256x512.size a
  inb_S1x27x256x512_S1x1x256x512_0_19_0_0 : ∀ a, (![0, 19, 0, 0] : Fin 4 → Nat) a + S1x1x256x512.size a ≤ S1x27x256x512.size a
  inb_S1x27x256x512_S1x1x256x512_0_20_0_0 : ∀ a, (![0, 20, 0, 0] : Fin 4 → Nat) a + S1x1x256x512.size a ≤ S1x27x256x512.size a
  inb_S1x27x256x512_S1x1x256x512_0_21_0_0 : ∀ a, (![0, 21, 0, 0] : Fin 4 → Nat) a + S1x1x256x512.size a ≤ S1x27x256x512.size a
  inb_S1x27x256x512_S1x1x256x512_0_22_0_0 : ∀ a, (![0, 22, 0, 0] : Fin 4 → Nat) a + S1x1x256x512.size a ≤ S1x27x256x512.size a
  inb_S1x27x256x512_S1x1x256x512_0_23_0_0 : ∀ a, (![0, 23, 0, 0] : Fin 4 → Nat) a + S1x1x256x512.size a ≤ S1x27x256x512.size a
  inb_S1x27x256x512_S1x1x256x512_0_24_0_0 : ∀ a, (![0, 24, 0, 0] : Fin 4 → Nat) a + S1x1x256x512.size a ≤ S1x27x256x512.size a
  inb_S1x27x256x512_S1x1x256x512_0_25_0_0 : ∀ a, (![0, 25, 0, 0] : Fin 4 → Nat) a + S1x1x256x512.size a ≤ S1x27x256x512.size a
  inb_S1x27x256x512_S1x1x256x512_0_26_0_0 : ∀ a, (![0, 26, 0, 0] : Fin 4 → Nat) a + S1x1x256x512.size a ≤ S1x27x256x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x512.size a ≤ S32x3x512x512.size a
  hwx0_0 : ∀ i : grid0.Coords, EltTy.bits .f32 = 32 ∨ (Rect.block (s := S32x3x512x512) S1x3x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x27x256x512.size a ≤ S32x27x512x512.size a
  hwx0_1 : ∀ i : grid0.Coords, EltTy.bits .f32 = 32 ∨ (Rect.block (s := S32x27x512x512) S1x27x256x512.size (cc0_transform_1 i) (hinb0_1 i)).WholeWords (EltTy.packing .f32)

variable [Facts₀]

abbrev win0_0 : Pipeline.Window sig grid0 :=
  Pipeline.Window.ofSpec (Memref.whole main_arg0) S1x3x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x27x256x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S18 : Shape := ⟨1, ![18]⟩
abbrev S32x9x512x512 : Shape := ⟨4, ![32, 9, 512, 512]⟩
abbrev S_ : Shape := ⟨0, ![]⟩
abbrev S18x1 : Shape := ⟨2, ![18, 1]⟩
abbrev S32x18x512x512 : Shape := ⟨4, ![32, 18, 512, 512]⟩
abbrev S32x27x512x512 : Shape := ⟨4, ![32, 27, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S18, .i32⟩
  | .hbm, ⟨2, _⟩ => ⟨S18, .i1⟩
  | .hbm, ⟨3, _⟩ => ⟨S18, .i32⟩
  | .hbm, ⟨4, _⟩ => ⟨S18, .i1⟩
  | .hbm, ⟨5, _⟩ => ⟨S32x3x512x512, .f32⟩
  | .hbm, ⟨6, _⟩ => ⟨S32x3x512x512, .f32⟩
  | .hbm, ⟨7, _⟩ => ⟨S32x9x512x512, .f32⟩
  | .hbm, ⟨8, _⟩ => ⟨S_, .i32⟩
  | .hbm, ⟨9, _⟩ => ⟨S18, .i32⟩
  | .hbm, ⟨10, _⟩ => ⟨S18, .i32⟩
  | .hbm, ⟨11, _⟩ => ⟨S18, .i32⟩
  | .hbm, ⟨12, _⟩ => ⟨S18x1, .i32⟩
  | .hbm, ⟨13, _⟩ => ⟨S32x18x512x512, .f32⟩
  | .hbm, ⟨14, _⟩ => ⟨S_, .i32⟩
  | .hbm, ⟨15, _⟩ => ⟨S18, .i32⟩
  | .hbm, ⟨16, _⟩ => ⟨S18, .i32⟩
  | .hbm, ⟨17, _⟩ => ⟨S18, .i32⟩
  | .hbm, ⟨18, _⟩ => ⟨S18x1, .i32⟩
  | .hbm, ⟨19, _⟩ => ⟨S32x18x512x512, .f32⟩
  | .hbm, ⟨20, _⟩ => ⟨S32x18x512x512, .f32⟩
  | .hbm, ⟨21, _⟩ => ⟨S32x27x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  concatenates_S32x3x512x512_S32x3x512x512_S32x3x512x512_S32x9x512x512_d1 : Shape.Concatenates [S32x3x512x512, S32x3x512x512, S32x3x512x512] S32x9x512x512 1
  bcast_S_S18 : S_.BroadcastsInDim S18 (![] : Fin 0 → Fin S18.rank)
  bcast_S18_S18x1_0 : S18.BroadcastsInDim S18x1 (![0] : Fin 1 → Fin S18x1.rank)
  concatenates_S32x9x512x512_S32x18x512x512_S32x27x512x512_d1 : Shape.Concatenates [S32x9x512x512, S32x18x512x512] S32x27x512x512 1
  gather_S32x9x512x512_S18x1_S32x18x512x512_023_1_n_n_1_1_321512512_wf : GatherDims.WF S32x9x512x512 S18x1 S32x18x512x512 [0, 2, 3] [1] [] [1] [] 1 ![32, 1, 512, 512]

variable [Facts₀]

def gather_S32x9x512x512_S18x1_S32x18x512x512_023_1_n_n_1_1_321512512 : GatherDims S32x9x512x512 S18x1 S32x18x512x512 where
  offsetDims := [0, 2, 3]
  collapsedSliceDims := [1]
  operandBatchingDims := []
  startIndicesBatchingDims := []
  startIndexMap := [1]
  indexVectorDim := 1
  sliceSizes := ![32, 1, 512, 512]
  wf := gather_S32x9x512x512_S18x1_S32x18x512x512_023_1_n_n_1_1_321512512_wf

class Facts : Prop extends Facts₀ where

variable [Facts]
-- ==== Proof.Spec.lean ====
/-
  The function both programs compute, stated once, index by index, over any batch, height and width.

  From an array `x` with three channels the nine "base" channels are `x`, `cos x`, `sin x` (three channels each);
  the result has twenty-seven channels: the nine base channels followed by eighteen products of two base channels,
  product `k` being base channel `first k` times base channel `second k`. The pairs `(first k, second k)` are the pairs
  `(i, j)` with `i ≤ j`, `j ≡ i (mod 3)`, `j < 9`, in lexicographic order: a channel is multiplied with the same
  input channel's value, cosine and sine.

  Everything is pointwise in the batch, row and column coordinates, so the same formula describes the whole array and
  each of its blocks.
-/
import Idealize.ShloMosaic.PureOps.Ideal
import Idealize.ShloMosaic.Lib.ValueIdx

noncomputable section

namespace Cert.SinCosPairs

open Idealize.ShloMosaic Idealize.ShloMosaic.ValueIdx

/-- The first factor's base channel of product `k`. -/
def first : Nat → Nat
  | 0 => 0 | 1 => 0 | 2 => 0 | 3 => 1 | 4 => 1 | 5 => 1 | 6 => 2 | 7 => 2 | 8 => 2
  | 9 => 3 | 10 => 3 | 11 => 4 | 12 => 4 | 13 => 5 | 14 => 5 | 15 => 6 | 16 => 7 | _ => 8

/-- The second factor's base channel of product `k`. -/
def second : Nat → Nat
  | 0 => 0 | 1 => 3 | 2 => 6 | 3 => 1 | 4 => 4 | 5 => 7 | 6 => 2 | 7 => 5 | 8 => 8
  | 9 => 3 | 10 => 6 | 11 => 4 | 12 => 7 | 13 => 5 | 14 => 8 | 15 => 6 | 16 => 7 | _ => 8

theorem first_lt (k : Nat) : first k < 9 := by
  unfold first; split <;> decide

theorem second_lt (k : Nat) : second k < 9 := by
  unfold second; split <;> decide

variable {B H W : Nat}

/-- Base channel `c` (any natural number; 9 and above read as the last group) at batch `b`, row `h`, column `w`:
    the input's channel `c` for `c < 3`, the cosine of channel `c - 3` for `3 ≤ c < 6`, the sine of channel
    `c - 6` (capped at 2) otherwise. -/
def base (x : (⟨4, ![B, 3, H, W]⟩ : Shape).Idx → EReal) (b : Fin B) (c : Nat) (h : Fin H) (w : Fin W) : EReal :=
  if h3 : c < 3 then x (ix4 b ⟨c, h3⟩ h w)
  else if h6 : c < 6 then Ideal.cos (x (ix4 b ⟨c - 3, by omega⟩ h w))
  else Ideal.sin (x (ix4 b ⟨min (c - 6) 2, by omega⟩ h w))

/-- Result channel `c` at batch `b`, row `h`, column `w`: a base channel for `c < 9`, else the product of the two
    base channels the pair table names. -/
def at4 (x : (⟨4, ![B, 3, H, W]⟩ : Shape).Idx → EReal) (b : Fin B) (c : Nat) (h : Fin H) (w : Fin W) : EReal :=
  if c < 9 then base x b c h w else base x b (first (c - 9)) h w * base x b (second (c - 9)) h w

/-- The whole result as an array of twenty-seven channels. -/
def result (x : (⟨4, ![B, 3, H, W]⟩ : Shape).Idx → EReal) : (⟨4, ![B, 27, H, W]⟩ : Shape).Idx → EReal :=
  fun j => at4 x (j 0) (j 1).val (j 2) (j 3)

theorem result_ix4 (x : (⟨4, ![B, 3, H, W]⟩ : Shape).Idx → EReal) (b : Fin B) (c : Fin 27) (h : Fin H) (w : Fin W) :
    result x (ix4 b c h w) = at4 x b c.val h w := rfl

/-- The result depends on the input only through the entries at the same batch, row and column: if `x'` at
    `(b', ·, h', w')` is `x` at `(b, ·, h, w)`, the results there agree on every channel. -/
theorem at4_congr {B' H' W' : Nat} (x : (⟨4, ![B, 3, H, W]⟩ : Shape).Idx → EReal)
    (x' : (⟨4, ![B', 3, H', W']⟩ : Shape).Idx → EReal) (b : Fin B) (h : Fin H) (w : Fin W) (b' : Fin B') (h' : Fin H')
    (w' : Fin W') (hx : ∀ k : Fin 3, x' (ix4 b' k h' w') = x (ix4 b k h w)) (c : Nat) :
    at4 x' b' c h' w' = at4 x b c h w := by
  have hb : ∀ c, base x' b' c h' w' = base x b c h w := by
    intro c; unfold base
    split
    · exact hx _
    · split
      · rw [hx]
      · rw [hx]
  unfold at4
  split
  · exact hb _
  · rw [hb, hb]

end Cert.SinCosPairs

end
-- ==== Proof.LibBlockLayout.lean ====
/-
  Layout operations read at an index given by its coordinates, in the shapes a kernel block of rank four meets:
  a matrix viewed as a `[1, 1, a, b]` block, one channel cut out of a `[m, a, b]` stack and viewed as a matrix, and the
  place a unit-stride rectangle of a rank-four buffer gives to one of its own indices.
-/
import Idealize.ShloMosaic.Lib.ValueLayout
import Idealize.ShloMosaic.Lib.Pipeline.Value

namespace Idealize.ShloMosaic.ValueIdx

open Idealize.ShloMosaic

variable {α : Type}

/-- An `[a, b]` array cast to `[1, 1, a, b]` reads, at `(u, v, i, j)`, the operand at `(i, j)`: both unit coordinates are
    zero, so the row-major positions agree. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- Channel `k` of an `[m, a, b]` stack, cut out as a `[1, a, b]` slab and viewed as a matrix, reads at `(i, j)` the
    stack at `(k, i, j)`. -/
theorem channel_apply {m a b : ℕ} (k : ℕ) (x : (⟨3, ![m, a, b]⟩ : Shape).Idx → α)
    (hs : (⟨3, ![m, a, b]⟩ : Shape).Slices ![k, 0, 0] ⟨3, ![1, a, b]⟩)
    (hc : (⟨3, ![1, a, b]⟩ : Shape).ShapeCasts ⟨2, ![a, b]⟩) (i : Fin a) (j : Fin b) (c : Fin m) (hk : c.val = k) :
    shapeCast ⟨2, ![a, b]⟩ (extractStridedSlice ⟨3, ![1, a, b]⟩ ![k, 0, 0] x hs) hc (ix2 i j) = x (ix3 c i j) :=
  (shapeCast_1ab_ab_apply _ hc i j).trans
    (extractStridedSlice_apply _ _ _ _ _ (fun ax => by
      match ax with
      | ⟨0, _⟩ => show c.val = k + 0; omega
      | ⟨1, _⟩ => exact (Nat.zero_add _).symm
      | ⟨2, _⟩ => exact (Nat.zero_add _).symm))

/-- A unit-stride rectangle of sizes `[m0, m1, m2, m3]` at offsets `[o0, o1, o2, o3]` of a rank-four buffer places its
    own index `(a, b, c, d)` at `(o0 + a, o1 + b, o2 + c, o3 + d)`. -/
theorem unit_emb_ix4 {n0 n1 n2 n3 m0 m1 m2 m3 : ℕ} (o0 o1 o2 o3 : ℕ)
    (inb : ∀ ax, (![o0, o1, o2, o3] : Fin 4 → ℕ) ax + (![m0, m1, m2, m3] : Fin 4 → ℕ) ax ≤ (⟨4, ![n0, n1, n2, n3]⟩ : Shape).size ax)
    (a : Fin m0) (b : Fin m1) (c : Fin m2) (d : Fin m3) (a' : Fin n0) (b' : Fin n1) (c' : Fin n2) (d' : Fin n3)
    (ha : a'.val = o0 + a.val) (hb : b'.val = o1 + b.val) (hc : c'.val = o2 + c.val) (hd : d'.val = o3 + d.val) :
    (Rect.unit (s := ⟨4, ![n0, n1, n2, n3]⟩) ![o0, o1, o2, o3] ![m0, m1, m2, m3] inb).emb (ix4 a b c d) = ix4 a' b' c' d' := by
  funext ax
  apply Fin.ext
  match ax with
  | ⟨0, _⟩ => show o0 + 1 * a.val = a'.val; omega
  | ⟨1, _⟩ => show o1 + 1 * b.val = b'.val; omega
  | ⟨2, _⟩ => show o2 + 1 * c.val = c'.val; omega
  | ⟨3, _⟩ => show o3 + 1 * d.val = d'.val; omega

end Idealize.ShloMosaic.ValueIdx
-- ==== Proof.KernelBlock.lean ====
/-
  What the kernel body leaves in its output block, as a function of the input block it loaded.

  The body loads a block `x0` of three channels, forms `cos x0` and `sin x0`, and fills the twenty-seven channel
  block by twenty-one stores: three slabs of three channels (`x0`, `cos x0`, `sin x0`) and eighteen single channels,
  each the product of one channel of one of those three groups with one channel of another. Every store's payload is the
  matching part of `SinCosPairs.result x0`, so the block the stores leave is that function.
-/
import proofs.«133165_j58746562675072_2_alg».proof.Proof.Gen.KernelIdeal.Frame
import proofs.«133165_j58746562675072_2_alg».proof.Proof.Spec
import proofs.«133165_j58746562675072_2_alg».proof.Proof.LibBlockLayout

noncomputable section

namespace Cert.KernelIdeal.BlockValue

open Cert.KernelIdeal Cert.KernelIdeal.Gen Idealize.ShloMosaic Idealize.ShloMosaic.TcCoe Idealize.SL.Sem
open Idealize.ShloMosaic.ValueIdx Idealize.ShloMosaic.Tactic Cert.SinCosPairs

/-- The three groups of channels the body computes from the loaded block: `0` the block itself, `1` its cosine,
    `2` (and above) its sine. -/
def grp (x0 : Vec Ideal S1x3x256x512 .f32) : ℕ → FVec Ideal S3x256x512 .f32
  | 0 => k0_pay4 x0
  | 1 => k0_pay5 x0
  | _ => k0_pay6 x0

theorem block_apply (x0 : Vec Ideal S1x3x256x512 .f32) (k : Fin 3) (h : Fin 256) (w : Fin 512) :
    k0_pay4 x0 (ix3 k h w) = x0 (ix4 (0 : Fin 1) k h w) :=
  shapeCast_1abc_abc_apply x0 _ k h w

/-- Channel `k` of group `g` is base channel `3 g + k` of the block. -/
theorem grp_apply (x0 : Vec Ideal S1x3x256x512 .f32) (g : ℕ) (hg : g < 3) (k : Fin 3) (h : Fin 256) (w : Fin 512) :
    grp x0 g (ix3 k h w) = base x0 (0 : Fin 1) (3 * g + k.val) h w := by
  have hk := k.isLt
  unfold base
  match g, hg with
  | 0, _ =>
    rw [dif_pos (by omega)]
    exact (block_apply x0 k h w).trans (congrArg (fun q => x0 (ix4 (0 : Fin 1) q h w)) (Fin.ext (by simp)))
  | 1, _ =>
    rw [dif_neg (by omega), dif_pos (by omega)]
    show Ideal.cos (k0_pay4 x0 (ix3 k h w)) = _
    rw [block_apply]
    exact congrArg (fun q => Ideal.cos (x0 (ix4 (0 : Fin 1) q h w))) (Fin.ext (by simp))
  | 2, _ =>
    rw [dif_neg (by omega), dif_neg (by omega)]
    show Ideal.sin (k0_pay4 x0 (ix3 k h w)) = _
    rw [block_apply]
    exact congrArg (fun q => Ideal.sin (x0 (ix4 (0 : Fin 1) q h w))) (Fin.ext (by simp <;> omega))

/-- A single-channel store of a product: channel `k` of group `g` times channel `k'` of group `g'`, written at
    result channel `ch = 9 + n` where the pair table's entry `n` names base channels `3 g + k` and `3 g' + k'`, is the
    result function on that channel. -/
theorem prod_store (x0 : Vec Ideal S1x3x256x512 .f32) (n g k g' k' ch : ℕ) (hch : ch = 9 + n) (hn : n < 18)
    (hfirst : first n = 3 * g + k) (hsecond : second n = 3 * g' + k') (hg : g < 3) (hg' : g' < 3) (hk : k < 3) (hk' : k' < 3)
    (hs : S3x256x512.Slices ![k, 0, 0] S1x256x512) (hs' : S3x256x512.Slices ![k', 0, 0] S1x256x512)
    (hc : S1x256x512.ShapeCasts S256x512) (h4 : S256x512.ShapeCasts S1x1x256x512)
    (inb : ∀ a, (![0, ch, 0, 0] : Fin 4 → ℕ) a + (![1, 1, 256, 512] : Fin 4 → ℕ) a ≤ S1x27x256x512.size a)
    (y : S1x1x256x512.Idx) :
    shapeCast S1x1x256x512 (mulf (shapeCast S256x512 (extractStridedSlice S1x256x512 ![k, 0, 0] (grp x0 g) hs) hc)
        (shapeCast S256x512 (extractStridedSlice S1x256x512 ![k', 0, 0] (grp x0 g') hs') hc)) h4 y
      = result x0 ((Rect.unit (s := S1x27x256x512) ![0, ch, 0, 0] ![1, 1, 256, 512] inb).emb y) := by
  obtain ⟨a, b, h, w, rfl⟩ : ∃ (a b : Fin 1) (h : Fin 256) (w : Fin 512), y = ix4 a b h w :=
    ⟨y 0, y 1, y 2, y 3, eq_ix4 y⟩
  subst hch
  have ha := a.isLt
  have hb := b.isLt
  rw [unit_emb_ix4 0 (9 + n) 0 0 inb a b h w (0 : Fin 1) (⟨9 + n, by omega⟩ : Fin 27) h w (by simp <;> omega) (by simp <;> omega) (by simp) (by simp),
    result_ix4]
  refine (shapeCast_ab_11ab_apply _ h4 a b h w).trans ?_
  rw [mulf_apply, channel_apply k _ hs hc h w ⟨k, hk⟩ rfl, channel_apply k' _ hs' hc h w ⟨k', hk'⟩ rfl,
    grp_apply x0 g hg, grp_apply x0 g' hg']
  unfold at4
  rw [if_neg (by simp), Nat.add_sub_cancel_left, hfirst, hsecond]

/-- A three-channel slab store of group `g`, written at result channels `3 g, 3 g + 1, 3 g + 2`, is the result function
    there. -/
theorem slab_store (x0 : Vec Ideal S1x3x256x512 .f32) (g o : ℕ) (ho : o = 3 * g) (hg : g < 3)
    (h4 : S3x256x512.ShapeCasts S1x3x256x512)
    (inb : ∀ a, (![0, o, 0, 0] : Fin 4 → ℕ) a + (![1, 3, 256, 512] : Fin 4 → ℕ) a ≤ S1x27x256x512.size a)
    (y : S1x3x256x512.Idx) :
    shapeCast S1x3x256x512 (grp x0 g) h4 y
      = result x0 ((Rect.unit (s := S1x27x256x512) ![0, o, 0, 0] ![1, 3, 256, 512] inb).emb y) := by
  obtain ⟨a, k, h, w, rfl⟩ : ∃ (a : Fin 1) (k : Fin 3) (h : Fin 256) (w : Fin 512), y = ix4 a k h w :=
    ⟨y 0, y 1, y 2, y 3, eq_ix4 y⟩
  subst ho
  have ha := a.isLt
  have hk := k.isLt
  rw [unit_emb_ix4 0 (3 * g) 0 0 inb a k h w (0 : Fin 1) (⟨3 * g + k.val, by omega⟩ : Fin 27) h w (by simp <;> omega) (by simp) (by simp) (by simp),
    result_ix4]
  refine (shapeCast_abc_1abc_apply _ h4 a k h w).trans ?_
  rw [grp_apply x0 g hg]
  unfold at4
  rw [if_pos (by simp <;> omega)]

theorem hz4 : (![0, 0, 0, 0] : Fin 4 → ℕ) = fun _ => 0 := funext fun a => by fin_cases a <;> rfl

/-- THE OUTPUT BLOCK the body leaves is the result function of the input block it loaded: each of the twenty-one
    stores writes the matching part of that one function, and together they cover the block. -/
theorem out_eq (c : Dev nD) (i : grid0.Coords) (arg2 : Memref sig .tc .vmem S1x3x256x512 .f32) (harg2 : arg2.IsWhole)
    (arg3 : Memref sig .tc .vmem S1x27x256x512 .f32) (harg3 : arg3.IsWhole) (x0 : Vec Ideal S1x3x256x512 .f32) :
    out0_A_1 (F := Ideal) c i arg2 harg2 arg3 harg3 x0 = result x0 := by
  funext y
  unfold out0_A_1
  rw [View.read_writes_apply_eq_canon _ _ y _ (cover0_A_1 c i arg2 harg2 arg3 harg3 x0 y)]
  refine View.canon_apply_of_pieces (result x0) _ ?_ y (cover0_A_1 c i arg2 harg2 arg3 harg3 x0 y)
  unfold kernelRun0_A
  dsimp only
  sl_unfold_words
  simp only [View.readAt_eq_ld, harg2.read_unread, View.ld_unit_zero (S := S1x3x256x512) hz4]
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl
  · exact prod_store x0 17 2 2 2 2 26 rfl (by decide) rfl rfl (by decide) (by decide) (by decide) (by decide)
      Facts₀.slices_S3x256x512_o2_0_0_S1x256x512 Facts₀.slices_S3x256x512_o2_0_0_S1x256x512 Facts₀.shapeCasts_S1x256x512_S256x512
      Facts₀.shapeCasts_S256x512_S1x1x256x512 Facts₀.inb_S1x27x256x512_S1x1x256x512_0_26_0_0
  · exact prod_store x0 16 2 1 2 1 25 rfl (by decide) rfl rfl (by decide) (by decide) (by decide) (by decide)
      Facts₀.slices_S3x256x512_o1_0_0_S1x256x512 Facts₀.slices_S3x256x512_o1_0_0_S1x256x512 Facts₀.shapeCasts_S1x256x512_S256x512
      Facts₀.shapeCasts_S256x512_S1x1x256x512 Facts₀.inb_S1x27x256x512_S1x1x256x512_0_25_0_0
  · exact prod_store x0 15 2 0 2 0 24 rfl (by decide) rfl rfl (by decide) (by decide) (by decide) (by decide)
      Facts₀.slices_S3x256x512_o0_0_0_S1x256x512 Facts₀.slices_S3x256x512_o0_0_0_S1x256x512 Facts₀.shapeCasts_S1x256x512_S256x512
      Facts₀.shapeCasts_S256x512_S1x1x256x512 Facts₀.inb_S1x27x256x512_S1x1x256x512_0_24_0_0
  · exact prod_store x0 14 1 2 2 2 23 rfl (by decide) rfl rfl (by decide) (by decide) (by decide) (by decide)
      Facts₀.slices_S3x256x512_o2_0_0_S1x256x512 Facts₀.slices_S3x256x512_o2_0_0_S1x256x512 Facts₀.shapeCasts_S1x256x512_S256x512
      Facts₀.shapeCasts_S256x512_S1x1x256x512 Facts₀.inb_S1x27x256x512_S1x1x256x512_0_23_0_0
  · exact prod_store x0 13 1 2 1 2 22 rfl (by decide) rfl rfl (by decide) (by decide) (by decide) (by decide)
      Facts₀.slices_S3x256x512_o2_0_0_S1x256x512 Facts₀.slices_S3x256x512_o2_0_0_S1x256x512 Facts₀.shapeCasts_S1x256x512_S256x512
      Facts₀.shapeCasts_S256x512_S1x1x256x512 Facts₀.inb_S1x27x256x512_S1x1x256x512_0_22_0_0
  · exact prod_store x0 12 1 1 2 1 21 rfl (by decide) rfl rfl (by decide) (by decide) (by decide) (by decide)
      Facts₀.slices_S3x256x512_o1_0_0_S1x256x512 Facts₀.slices_S3x256x512_o1_0_0_S1x256x512 Facts₀.shapeCasts_S1x256x512_S256x512
      Facts₀.shapeCasts_S256x512_S1x1x256x512 Facts₀.inb_S1x27x256x512_S1x1x256x512_0_21_0_0
  · exact prod_store x0 11 1 1 1 1 20 rfl (by decide) rfl rfl (by decide) (by decide) (by decide) (by decide)
      Facts₀.slices_S3x256x512_o1_0_0_S1x256x512 Facts₀.slices_S3x256x512_o1_0_0_S1x256x512 Facts₀.shapeCasts_S1x256x512_S256x512
      Facts₀.shapeCasts_S256x512_S1x1x256x512 Facts₀.inb_S1x27x256x512_S1x1x256x512_0_20_0_0
  · exact prod_store x0 10 1 0 2 0 19 rfl (by decide) rfl rfl (by decide) (by decide) (by decide) (by decide)
      Facts₀.slices_S3x256x512_o0_0_0_S1x256x512 Facts₀.slices_S3x256x512_o0_0_0_S1x256x512 Facts₀.shapeCasts_S1x256x512_S256x512
      Facts₀.shapeCasts_S256x512_S1x1x256x512 Facts₀.inb_S1x27x256x512_S1x1x256x512_0_19_0_0
  · exact prod_store x0 9 1 0 1 0 18 rfl (by decide) rfl rfl (by decide) (by decide) (by decide) (by decide)
      Facts₀.slices_S3x256x512_o0_0_0_S1x256x512 Facts₀.slices_S3x256x512_o0_0_0_S1x256x512 Facts₀.shapeCasts_S1x256x512_S256x512
      Facts₀.shapeCasts_S256x512_S1x1x256x512 Facts₀.inb_S1x27x256x512_S1x1x256x512_0_18_0_0
  · exact prod_store x0 8 0 2 2 2 17 rfl (by decide) rfl rfl (by decide) (by decide) (by decide) (by decide)
      Facts₀.slices_S3x256x512_o2_0_0_S1x256x512 Facts₀.slices_S3x256x512_o2_0_0_S1x256x512 Facts₀.shapeCasts_S1x256x512_S256x512
      Facts₀.shapeCasts_S256x512_S1x1x256x512 Facts₀.inb_S1x27x256x512_S1x1x256x512_0_17_0_0
  · exact prod_store x0 7 0 2 1 2 16 rfl (by decide) rfl rfl (by decide) (by decide) (by decide) (by decide)
      Facts₀.slices_S3x256x512_o2_0_0_S1x256x512 Facts₀.slices_S3x256x512_o2_0_0_S1x256x512 Facts₀.shapeCasts_S1x256x512_S256x512
      Facts₀.shapeCasts_S256x512_S1x1x256x512 Facts₀.inb_S1x27x256x512_S1x1x256x512_0_16_0_0
  · exact prod_store x0 6 0 2 0 2 15 rfl (by decide) rfl rfl (by decide) (by decide) (by decide) (by decide)
      Facts₀.slices_S3x256x512_o2_0_0_S1x256x512 Facts₀.slices_S3x256x512_o2_0_0_S1x256x512 Facts₀.shapeCasts_S1x256x512_S256x512
      Facts₀.shapeCasts_S256x512_S1x1x256x512 Facts₀.inb_S1x27x256x512_S1x1x256x512_0_15_0_0
  · exact prod_store x0 5 0 1 2 1 14 rfl (by decide) rfl rfl (by decide) (by decide) (by decide) (by decide)
      Facts₀.slices_S3x256x512_o1_0_0_S1x256x512 Facts₀.slices_S3x256x512_o1_0_0_S1x256x512 Facts₀.shapeCasts_S1x256x512_S256x512
      Facts₀.shapeCasts_S256x512_S1x1x256x512 Facts₀.inb_S1x27x256x512_S1x1x256x512_0_14_0_0
  · exact prod_store x0 4 0 1 1 1 13 rfl (by decide) rfl rfl (by decide) (by decide) (by decide) (by decide)
      Facts₀.slices_S3x256x512_o1_0_0_S1x256x512 Facts₀.slices_S3x256x512_o1_0_0_S1x256x512 Facts₀.shapeCasts_S1x256x512_S256x512
      Facts₀.shapeCasts_S256x512_S1x1x256x512 Facts₀.inb_S1x27x256x512_S1x1x256x512_0_13_0_0
  · exact prod_store x0 3 0 1 0 1 12 rfl (by decide) rfl rfl (by decide) (by decide) (by decide) (by decide)
      Facts₀.slices_S3x256x512_o1_0_0_S1x256x512 Facts₀.slices_S3x256x512_o1_0_0_S1x256x512 Facts₀.shapeCasts_S1x256x512_S256x512
      Facts₀.shapeCasts_S256x512_S1x1x256x512 Facts₀.inb_S1x27x256x512_S1x1x256x512_0_12_0_0
  · exact prod_store x0 2 0 0 2 0 11 rfl (by decide) rfl rfl (by decide) (by decide) (by decide) (by decide)
      Facts₀.slices_S3x256x512_o0_0_0_S1x256x512 Facts₀.slices_S3x256x512_o0_0_0_S1x256x512 Facts₀.shapeCasts_S1x256x512_S256x512
      Facts₀.shapeCasts_S256x512_S1x1x256x512 Facts₀.inb_S1x27x256x512_S1x1x256x512_0_11_0_0
  · exact prod_store x0 1 0 0 1 0 10 rfl (by decide) rfl rfl (by decide) (by decide) (by decide) (by decide)
      Facts₀.slices_S3x256x512_o0_0_0_S1x256x512 Facts₀.slices_S3x256x512_o0_0_0_S1x256x512 Facts₀.shapeCasts_S1x256x512_S256x512
      Facts₀.shapeCasts_S256x512_S1x1x256x512 Facts₀.inb_S1x27x256x512_S1x1x256x512_0_10_0_0
  · exact prod_store x0 0 0 0 0 0 9 rfl (by decide) rfl rfl (by decide) (by decide) (by decide) (by decide)
      Facts₀.slices_S3x256x512_o0_0_0_S1x256x512 Facts₀.slices_S3x256x512_o0_0_0_S1x256x512 Facts₀.shapeCasts_S1x256x512_S256x512
      Facts₀.shapeCasts_S256x512_S1x1x256x512 Facts₀.inb_S1x27x256x512_S1x1x256x512_0_9_0_0
  · exact slab_store x0 2 6 rfl (by decide) Facts₀.shapeCasts_S3x256x512_S1x3x256x512 Facts₀.inb_S1x27x256x512_S1x3x256x512_0_6_0_0
  · exact slab_store x0 1 3 rfl (by decide) Facts₀.shapeCasts_S3x256x512_S1x3x256x512 Facts₀.inb_S1x27x256x512_S1x3x256x512_0_3_0_0
  · exact slab_store x0 0 0 rfl (by decide) Facts₀.shapeCasts_S3x256x512_S1x3x256x512 Facts₀.inb_S1x27x256x512_S1x3x256x512_0_0_0_0

end Cert.KernelIdeal.BlockValue

end
-- ==== Proof.KernelArray.lean ====
/-
  From blocks to the array: after the kernel's run its output array holds `SinCosPairs.result` of the argument array.

  Grid point `t` handles batch entry `b` and row tile `r` (rows `256 r … 256 r + 255`): its input block is the argument
  at `(b, ·, 256 r + ·, ·)`, its output block the result array at the same batch entry and rows. The result function is
  pointwise in batch, row and column, so the block the body leaves — the result function of the input block — is the
  block of the result function of the whole argument. The sixty-four blocks tile the output array.
-/
import proofs.«133165_j58746562675072_2_alg».proof.Proof.Gen.KernelIdeal.Value
import proofs.«133165_j58746562675072_2_alg».proof.Proof.KernelBlock

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.SinCosPairs
open Idealize.ShloMosaic.Pipeline (Dat)

variable (m : (ℓ : Loc nD τ sig) → Buf (Elt Ideal) ℓ) (ρ : Dev nD → PrngReg)

/-- The two windows' index maps, decided over the grid: both name the same batch entry (axis 0) and row tile (axis 2)
    and block `0` on the channel and column axes. -/
theorem idx_facts : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (1 : Fin 4) = 0 ∧ win0_1.index t (3 : Fin 4) = 0
    ∧ win0_1.index t (0 : Fin 4) < 32 ∧ win0_1.index t (2 : Fin 4) < 2 :=
  (by decide +kernel : ∀ t : Fin grid0.N, _)

/-- Every (batch entry, row tile) pair is some grid point's. -/
theorem idx_onto : ∀ (q0 : Fin 32) (q2 : Fin 2), ∃ t : Fin cfg0.N, win0_1.index t = ![q0.val, 0, q2.val, 0] :=
  (by decide +kernel : ∀ (q0 : Fin 32) (q2 : Fin 2), ∃ t : Fin grid0.N, win0_1.index t = ![q0.val, 0, q2.val, 0])

/-- The result function of a block is the block of the result function, once the block's entries are the array's at the
    same batch entry, row and column. -/
theorem result_block (X : S32x3x512x512.Idx → EReal) (x0 : S1x3x256x512.Idx → EReal) (y : S1x27x256x512.Idx)
    (i : S32x27x512x512.Idx) (hi1 : (i 1).val = (y 1).val)
    (hx : ∀ k : Fin 3, x0 (ix4 (y 0) k (y 2) (y 3)) = X (ix4 (i 0) k (i 2) (i 3))) : result x0 y = result X i := by
  show at4 x0 (y 0) (y 1).val (y 2) (y 3) = at4 X (i 0) (i 1).val (i 2) (i 3)
  rw [hi1]
  exact at4_congr X x0 (i 0) (i 2) (i 3) (y 0) (y 2) (y 3) hx _

/-- WHAT POINT `t` WRITES BACK is block `t` of the result function of the argument array. -/
theorem flushed_eq (c : Dev nD) (t : Fin cfg0.N) :
    (dats m 0 c).flushed 1 t = ((cfg0.win 1).blk t).view.read (Elt Ideal) (result (V m c main_arg0)) := by
  rw [flushed1_A, out_eq]
  obtain ⟨e0, e1, e2, e3, e4, e5, e6, e7⟩ := idx_facts t
  funext y
  show result (iblk m c 0 t) y = result (V m c main_arg0) (((cfg0.win 1).blk t).view.emb y)
  refine result_block (V m c main_arg0) (iblk m c 0 t) y _ ?_ ?_
  · show win0_1.index t (1 : Fin 4) * 27 + 1 * (y 1).val = (y 1).val
    omega
  · intro k
    show V m c main_arg0 (((cfg0.win 0).blk t).view.emb (ix4 (y 0) k (y 2) (y 3)))
      = V m c main_arg0 (ix4 ((((cfg0.win 1).blk t).view.emb y) 0) k ((((cfg0.win 1).blk t).view.emb y) 2) ((((cfg0.win 1).blk t).view.emb y) 3))
    refine congrArg _ (funext fun ax => Fin.ext ?_)
    match ax with
    | ⟨0, _⟩ => show win0_0.index t (0 : Fin 4) * 1 + 1 * (y 0).val = win0_1.index t (0 : Fin 4) * 1 + 1 * (y 0).val; omega
    | ⟨1, _⟩ => show win0_0.index t (1 : Fin 4) * 3 + 1 * k.val = k.val; omega
    | ⟨2, _⟩ => show win0_0.index t (2 : Fin 4) * 256 + 1 * (y 2).val = win0_1.index t (2 : Fin 4) * 256 + 1 * (y 2).val; omega
    | ⟨3, _⟩ => show win0_0.index t (3 : Fin 4) * 512 + 1 * (y 3).val = win0_1.index t (3 : Fin 4) * 512 + 1 * (y 3).val; omega

/-- An index of the output array is in point `t`'s block iff each coordinate is in the block's range on its axis. -/
theorem mem_blk (t : Fin cfg0.N) (i : S32x27x512x512.Idx) :
    i ∈ ((cfg0.win 1).blk t).view.set ↔ ∀ a : Fin 4, win0_1.index t a * S1x27x256x512.size a ≤ (i a).val
      ∧ (i a).val < win0_1.index t a * S1x27x256x512.size a + S1x27x256x512.size a := by
  show i ∈ ((View.whole main_v0).slice (win0_1.rect t)).set ↔ _
  rw [View.set_slice_whole, Rect.mem_set_unit]
  exact Iff.rfl

/-- The blocks tile the output array: the point for batch entry `b` and row tile `h / 256` covers `(b, ·, h, ·)`. -/
theorem cover (i : S32x27x512x512.Idx) :
    ∃ t : Fin cfg0.N, (cfg0.win 1).flush t = true ∧ i ∈ ((cfg0.win 1).blk t).view.set := by
  have h0 : (i 0).val < 32 := (i 0).isLt
  have h1 : (i 1).val < 27 := (i 1).isLt
  have h2 : (i 2).val < 512 := (i 2).isLt
  have h3 : (i 3).val < 512 := (i 3).isLt
  obtain ⟨t, ht⟩ := idx_onto ⟨(i 0).val, h0⟩ ⟨(i 2).val / 256, by omega⟩
  have q0 : win0_1.index t (0 : Fin 4) = (i 0).val := congrFun ht 0
  have q1 : win0_1.index t (1 : Fin 4) = 0 := congrFun ht 1
  have q2 : win0_1.index t (2 : Fin 4) = (i 2).val / 256 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 27 ≤ (i 1).val ∧ (i 1).val < win0_1.index t (1 : Fin 4) * 27 + 27; omega
  | ⟨2, _⟩ => show win0_1.index t (2 : Fin 4) * 256 ≤ (i 2).val ∧ (i 2).val < win0_1.index t (2 : Fin 4) * 256 + 256; omega
  | ⟨3, _⟩ => show win0_1.index t (3 : Fin 4) * 512 ≤ (i 3).val ∧ (i 3).val < win0_1.index t (3 : Fin 4) * 512 + 512; omega

/-- THE OUTPUT ARRAY after the run is the result function of the argument array. -/
theorem final (c : Dev nD) : (dats m 0 c).arrAt 1 cfg0.N = result (V m c main_arg0) :=
  (dats m 0 c).arrAt_eq_of_cover 1 (result (V m c main_arg0)) (fun t _ => flushed_eq m c t) cover

/-- The kernel's run: every weakly fair execution terminates with the output array at the result function of the
    argument array, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefRun.lean ====
/-
  The reference program's run, read back: its twenty-one host operations as a list, and the statement that every
  weakly fair execution ends with the result buffer holding one composed term of the argument array.

  The term is named in four steps that follow the mathematics. `baseArr x` stacks `x`, `cos x` and `sin x` along the
  channel axis (nine channels). `startIdx lit` is a table of eighteen channel numbers turned into a column of start
  indices; on the way it passes through the wrap-around of negative indices (`lit + 9` where a mask holds), whose mask is
  constantly false, so it is the table itself. `picked x lit` gathers, for each of the eighteen entries, the whole
  base channel the table names. `refOut x` is the nine base channels followed by the eighteen products
  `picked x lit0 * picked x lit1`.
-/
import proofs.«133165_j58746562675072_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ nullary main_c (fun i => lit0 (S18.rowMajor i)),
    nullary main_c_0 (constantI S18 1 0#1),
    nullary main_c_1 (fun i => lit1 (S18.rowMajor i)),
    nullary main_c_2 (constantI S18 1 0#1),
    unary main_arg0 main_v0 (Host.cos : (⟨S32x3x512x512, .f32⟩ : BufTy).Contents (Elt F) → (⟨S32x3x512x512, .f32⟩ : BufTy).Contents (Elt F)),
    unary main_arg0 main_v1 (Host.sin : (⟨S32x3x512x512, .f32⟩ : BufTy).Contents (Elt F) → (⟨S32x3x512x512, .f32⟩ : BufTy).Contents (Elt F)),
    nary ![main_arg0, main_v0, main_v1] main_v2 (fun u => concatenate S32x9x512x512 1 [⟨S32x3x512x512, u 0⟩, ⟨S32x3x512x512, u 1⟩, ⟨S32x3x512x512, u 2⟩] concatenates_S32x3x512x512_S32x3x512x512_S32x3x512x512_S32x9x512x512_d1),
    nullary main_c_3 (constantI S_ 32 9#32),
    unary main_c_3 main_v3 (broadcastInDim S18 ![] bcast_S_S18 : (⟨S_, .i32⟩ : BufTy).Contents (Elt F) → (⟨S18, .i32⟩ : BufTy).Contents (Elt F)),
    binary main_c main_v3 main_v4 (addi : (⟨S18, .i32⟩ : BufTy).Contents (Elt F) → (⟨S18, .i32⟩ : BufTy).Contents (Elt F) → (⟨S18, .i32⟩ : BufTy).Contents (Elt F)),
    ternary main_c_0 main_v4 main_c main_v5 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    unary main_v5 main_v6 (broadcastInDim S18x1 ![0] bcast_S18_S18x1_0 : (⟨S18, .i32⟩ : BufTy).Contents (Elt F) → (⟨S18x1, .i32⟩ : BufTy).Contents (Elt F)),
    binary main_v2 main_v6 main_v7 ((fun x i => Host.gather gather_S32x9x512x512_S18x1_S32x18x512x512_023_1_n_n_1_1_321512512 x i) : (⟨S32x9x512x512, .f32⟩ : BufTy).Contents (Elt F) → (⟨S18x1, .i32⟩ : BufTy).Contents (Elt F) → (⟨S32x18x512x512, .f32⟩ : BufTy).Contents (Elt F)),
    nullary main_c_4 (constantI S_ 32 9#32),
    unary main_c_4 main_v8 (broadcastInDim S18 ![] bcast_S_S18 : (⟨S_, .i32⟩ : BufTy).Contents (Elt F) → (⟨S18, .i32⟩ : BufTy).Contents (Elt F)),
    binary main_c_1 main_v8 main_v9 (addi : (⟨S18, .i32⟩ : BufTy).Contents (Elt F) → (⟨S18, .i32⟩ : BufTy).Contents (Elt F) → (⟨S18, .i32⟩ : BufTy).Contents (Elt F)),
    ternary main_c_2 main_v9 main_c_1 main_v10 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    unary main_v10 main_v11 (broadcastInDim S18x1 ![0] bcast_S18_S18x1_0 : (⟨S18, .i32⟩ : BufTy).Contents (Elt F) → (⟨S18x1, .i32⟩ : BufTy).Contents (Elt F)),
    binary main_v2 main_v11 main_v12 ((fun x i => Host.gather gather_S32x9x512x512_S18x1_S32x18x512x512_023_1_n_n_1_1_321512512 x i) : (⟨S32x9x512x512, .f32⟩ : BufTy).Contents (Elt F) → (⟨S18x1, .i32⟩ : BufTy).Contents (Elt F) → (⟨S32x18x512x512, .f32⟩ : BufTy).Contents (Elt F)),
    binary main_v7 main_v12 main_v13 (mulf : (⟨S32x18x512x512, .f32⟩ : BufTy).Contents (Elt F) → (⟨S32x18x512x512, .f32⟩ : BufTy).Contents (Elt F) → (⟨S32x18x512x512, .f32⟩ : BufTy).Contents (Elt F)),
    binary main_v2 main_v13 main_v14 ((fun a b => concatenate S32x27x512x512 1 [⟨S32x9x512x512, a⟩, ⟨S32x18x512x512, b⟩] concatenates_S32x9x512x512_S32x18x512x512_S32x27x512x512_d1) : (⟨S32x9x512x512, .f32⟩ : BufTy).Contents (Elt F) → (⟨S32x18x512x512, .f32⟩ : BufTy).Contents (Elt F) → (⟨S32x27x512x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub .., nary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- The nine base channels: `x`, `cos x`, `sin x` stacked along the channel axis. -/
def baseArr (x : FVec F S32x3x512x512 .f32) : FVec F S32x9x512x512 .f32 :=
  concatenate S32x9x512x512 1 [⟨S32x3x512x512, x⟩, ⟨S32x3x512x512, Host.cos x⟩, ⟨S32x3x512x512, Host.sin x⟩]
    Facts₀.concatenates_S32x3x512x512_S32x3x512x512_S32x3x512x512_S32x9x512x512_d1

/-- A table of eighteen channel numbers as a column of start indices (through the never-taken wrap of negative
    indices). -/
def startIdx (lit : Fin 18 → BitVec 32) : IVec S18x1 32 :=
  broadcastInDim S18x1 ![0] Facts₀.bcast_S18_S18x1_0
    (select (constantI S18 1 0#1)
      (addi (fun i => lit (S18.rowMajor i)) (broadcastInDim S18 ![] Facts₀.bcast_S_S18 (constantI S_ 32 9#32)))
      (fun i => lit (S18.rowMajor i)))

/-- For each of the eighteen table entries, the base channel it names. -/
def picked (x : FVec F S32x3x512x512 .f32) (lit : Fin 18 → BitVec 32) : FVec F S32x18x512x512 .f32 :=
  Host.gather gather_S32x9x512x512_S18x1_S32x18x512x512_023_1_n_n_1_1_321512512 (baseArr x) (startIdx lit)

/-- The reference's result: the base channels, then the eighteen products. -/
def refOut (x : FVec F S32x3x512x512 .f32) : FVec F S32x27x512x512 .f32 :=
  concatenate S32x27x512x512 1 [⟨S32x9x512x512, baseArr x⟩, ⟨S32x18x512x512, mulf (picked x lit0) (picked x lit1)⟩]
    Facts₀.concatenates_S32x9x512x512_S32x18x512x512_S32x27x512x512_d1

/-- On every device, from any memory with zero counters: every weakly fair execution of the reference terminates with
    its result at `refOut` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.RefValue.lean ====
/-
  The reference's result, read at an index, is the function `SinCosPairs.result` of its argument.

  Read at `(b, c, h, w)`: the stack `baseArr x` of `x`, `cos x`, `sin x` is base channel `c`; a gather along the
  channel axis with a table of start indices reads the base channel the table names (the clamp to `[0, 8]` changes no
  entry of either table); the final stack is the base channels for `c < 9` and the products for `c ≥ 9`.
-/
import proofs.«133165_j58746562675072_2_alg».proof.Proof.RefRun
import proofs.«133165_j58746562675072_2_alg».proof.Proof.Spec
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.ValueIdx
open Cert.SinCosPairs

/-- The gather's dimension numbers: the channel axis is collapsed and indexed, the other three axes are copied whole. -/
abbrev GDa : GatherDims S32x9x512x512 S18x1 S32x18x512x512 :=
  gather_S32x9x512x512_S18x1_S32x18x512x512_023_1_n_n_1_1_321512512

/-- The gather read at `(b, k, h, w)`: the operand at `(b, c, h, w)` with `c` the start index `idx[k, 0]`, read signed
    and clamped into `[0, 8]`. -/
theorem gather_channel_apply {α : Type} (x : S32x9x512x512.Idx → α) (idx : IVec S18x1 32) (b : Fin 32) (k : Fin 18)
    (h w : Fin 512) :
    Host.gather gather_S32x9x512x512_S18x1_S32x18x512x512_023_1_n_n_1_1_321512512 x idx (ix4 b k h w)
      = x (ix4 b ⟨min (idx (ix2 k (0 : Fin 1))).toInt.toNat 8, by omega⟩ h w) := by
  unfold Host.gather
  refine congrArg x (funext fun a => Fin.ext ?_)
  show GatherDims.start GDa (ix4 b k h w) idx a + GatherDims.batchCoord GDa (ix4 b k h w) a
    + GatherDims.offCoord GDa (ix4 b k h w) a = _
  rw [GatherDims.batchCoord_eq_zero _ _ _ List.not_mem_nil]
  match a with
  | ⟨0, _⟩ =>
    have h1 : GDa.start (ix4 b k h w) idx ⟨0, by decide⟩ = 0 := by
      unfold GatherDims.start; exact dif_neg (by decide)
    have h2 : GDa.offCoord (ix4 b k h w) ⟨0, by decide⟩ = b.val := by
      unfold GatherDims.offCoord; rw [dif_pos (by decide)]; rfl
    rw [h1, h2]; show 0 + 0 + b.val = b.val; omega
  | ⟨1, _⟩ =>
    rw [GatherDims.offCoord_eq_zero _ _ _ (fun hm => ((GatherDims.mem_sKept _ _).mp hm).1 (List.mem_singleton.mpr rfl))]
    unfold GatherDims.start
    rw [dif_pos (show (⟨1, by decide⟩ : Fin S32x9x512x512.rank) ∈ GDa.startIndexMap from List.mem_singleton.mpr rfl)]
    have hsi : GDa.siIdx (ix4 b k h w) ⟨List.idxOf (⟨1, by decide⟩ : Fin S32x9x512x512.rank) GDa.startIndexMap,
        List.idxOf_lt_length_iff.2 (List.mem_singleton.mpr rfl)⟩ = ix2 k (0 : Fin 1) := by
      funext q; refine Fin.ext ?_
      match q with
      | ⟨0, _⟩ => rfl
      | ⟨1, _⟩ => rfl
    rw [hsi]
    rfl
  | ⟨2, _⟩ =>
    have h1 : GDa.start (ix4 b k h w) idx ⟨2, by decide⟩ = 0 := by
      unfold GatherDims.start; exact dif_neg (by decide)
    have h2 : GDa.offCoord (ix4 b k h w) ⟨2, by decide⟩ = h.val := by
      unfold GatherDims.offCoord; rw [dif_pos (by decide)]; rfl
    rw [h1, h2]; show 0 + 0 + h.val = h.val; omega
  | ⟨3, _⟩ =>
    have h1 : GDa.start (ix4 b k h w) idx ⟨3, by decide⟩ = 0 := by
      unfold GatherDims.start; exact dif_neg (by decide)
    have h2 : GDa.offCoord (ix4 b k h w) ⟨3, by decide⟩ = w.val := by
      unfold GatherDims.offCoord; rw [dif_pos (by decide)]; rfl
    rw [h1, h2]; show 0 + 0 + w.val = w.val; omega

/-- The column of start indices at row `k` is the table's entry `k`: the wrap of negative indices is masked off
    everywhere. -/
theorem startIdx_apply (lit : Fin 18 → BitVec 32) (k : Fin 18) (z : Fin 1) : startIdx lit (ix2 k z) = lit k := by
  unfold startIdx
  refine (broadcastInDim_apply _ _ _ (ix2 k z) (ix1 k) (fun a => by
    match a with
    | ⟨0, _⟩ => rfl)).trans ?_
  rw [select_apply]
  show Scalar.select 0#1 _ _ = _
  rw [select_zero]
  refine congrArg lit (Fin.ext ?_)
  rw [Shape.rowMajor_val_one]

/-- The stack of `x`, `cos x`, `sin x` at channel `c` is base channel `c`. -/
theorem baseArr_apply (x : FVec Ideal S32x3x512x512 .f32) (b : Fin 32) (c : Fin 9) (h w : Fin 512) :
    baseArr x (ix4 b c h w) = base x b c.val h w := by
  have hc := c.isLt
  have key : ∀ (g k : Fin 3), c.val / 3 = g.val → k.val = c.val % 3 →
      baseArr x (ix4 b c h w)
        = (![x, Host.cos x, Host.sin x] : Fin 3 → FVec Ideal S32x3x512x512 .f32) g (ix4 b k h w) := by
    intro g k hg hk
    unfold baseArr
    exact concatenate_ofFn_apply (t := S32x9x512x512) (s₁ := S32x3x512x512) 1
      (![x, Host.cos x, Host.sin x] : Fin 3 → FVec Ideal S32x3x512x512 .f32)
      Facts₀.concatenates_S32x3x512x512_S32x3x512x512_S32x3x512x512_S32x9x512x512_d1 rfl 3 rfl (ix4 b c h w) g hg
      (ix4 b k h w) hk (fun ax hax => by
        match ax with
        | ⟨0, _⟩ => rfl
        | ⟨1, _⟩ => exact absurd rfl hax
        | ⟨2, _⟩ => rfl
        | ⟨3, _⟩ => rfl)
  unfold base
  by_cases h3 : c.val < 3
  · rw [dif_pos h3]
    exact key 0 ⟨c.val, h3⟩ (by simp; omega) (by simp; omega)
  · rw [dif_neg h3]
    by_cases h6 : c.val < 6
    · rw [dif_pos h6]
      exact key 1 ⟨c.val - 3, by omega⟩ (by simp; omega) (by simp; omega)
    · rw [dif_neg h6]
      exact key 2 ⟨min (c.val - 6) 2, by omega⟩ (by simp; omega) (by simp; omega)

/-- The channel a table entry names, as a number: the tables hold small non-negative words, so the signed reading and
    the clamp to `[0, 8]` return the entry. -/
theorem lit0_channel (k : Fin 18) : min (lit0 k).toInt.toNat 8 = first k.val := by
  revert k; decide

theorem lit1_channel (k : Fin 18) : min (lit1 k).toInt.toNat 8 = second k.val := by
  revert k; decide

/-- A gather of the base channels by the first (second) table reads base channel `first k` (`second k`). -/
theorem picked0_apply (x : FVec Ideal S32x3x512x512 .f32) (b : Fin 32) (k : Fin 18) (h w : Fin 512) :
    picked x lit0 (ix4 b k h w) = base x b (first k.val) h w := by
  unfold picked
  rw [gather_channel_apply, baseArr_apply]
  show base x b (min (startIdx lit0 (ix2 k (0 : Fin 1))).toInt.toNat 8) h w = _
  rw [startIdx_apply, lit0_channel]

theorem picked1_apply (x : FVec Ideal S32x3x512x512 .f32) (b : Fin 32) (k : Fin 18) (h w : Fin 512) :
    picked x lit1 (ix4 b k h w) = base x b (second k.val) h w := by
  unfold picked
  rw [gather_channel_apply, baseArr_apply]
  show base x b (min (startIdx lit1 (ix2 k (0 : Fin 1))).toInt.toNat 8) h w = _
  rw [startIdx_apply, lit1_channel]

/-- THE REFERENCE'S RESULT is the result function of its argument. -/
theorem refOut_eq (x : FVec Ideal S32x3x512x512 .f32) : refOut x = result x := by
  funext j
  obtain ⟨b, c, h, w, rfl⟩ : ∃ (b : Fin 32) (c : Fin 27) (h w : Fin 512), j = ix4 b c h w :=
    ⟨j 0, j 1, j 2, j 3, eq_ix4 j⟩
  have hc := c.isLt
  rw [result_ix4]
  unfold refOut at4
  by_cases h9 : c.val < 9
  · rw [if_pos h9]
    refine (concatenate_pair_apply_left (t := S32x27x512x512) (s₁ := S32x9x512x512) (s₂ := S32x18x512x512) 1 _ _ _ (ix4 b c h w) rfl (ix4 b ⟨c.val, h9⟩ h w) (fun ax => by
      match ax with
      | ⟨0, _⟩ => rfl
      | ⟨1, _⟩ => rfl
      | ⟨2, _⟩ => rfl
      | ⟨3, _⟩ => rfl)).trans ?_
    exact baseArr_apply x b ⟨c.val, h9⟩ h w
  · rw [if_neg h9]
    refine (concatenate_pair_apply_right (t := S32x27x512x512) (s₁ := S32x9x512x512) (s₂ := S32x18x512x512) 1 _ _ _ (ix4 b c h w) rfl rfl
      (ix4 b ⟨c.val - 9, by omega⟩ h w) (fun ax hax => by
        match ax with
        | ⟨0, _⟩ => rfl
        | ⟨1, _⟩ => exact absurd rfl hax
        | ⟨2, _⟩ => rfl
        | ⟨3, _⟩ => rfl) (by show c.val - 9 + 9 = c.val; omega)).trans ?_
    rw [mulf_apply, picked0_apply, picked1_apply]

end Cert.ReferenceIdeal.RefValue

end
-- ==== Proof.lean ====
/-
  The kernel and its reference compute one function of the argument array `x : [32, 3, 512, 512]`: the array of
  twenty-seven channels whose first nine are `x`, `cos x`, `sin x` (three channels each) and whose last eighteen are
  products of two of those nine, product `k` being base channel `first k` times base channel `second k`
  (Proof/Spec.lean, `SinCosPairs.result`).

  The kernel runs on a grid of 32 × 2 points; point `(b, r)` loads the block of batch entry `b`, rows
  `256 r … 256 r + 255`, and fills the matching block of the output by twenty-one stores, each the matching part of the
  result function of the loaded block (Proof/KernelBlock.lean). The result function is pointwise in batch, row and
  column, so these blocks are the blocks of the result function of the whole argument, and they tile the output array
  (Proof/KernelArray.lean). The reference stacks `x`, `cos x`, `sin x`, gathers channels by two tables of indices,
  multiplies and stacks again (its run: Proof/RefRun.lean); read at an index this is the same function
  (Proof/RefValue.lean). At the ideal instance the kernel's `cos`, `sin` and the host's are the same functions on the
  extended reals, and the two programs multiply the same two factors in the same order: no algebraic law is needed and
  the finiteness of the input is never used.

  The idealization rewrote no operation of the kernel, so it preserves nothing beyond the program's own text.
-/
import proofs.«133165_j58746562675072_2_alg».proof.Defs
import proofs.«133165_j58746562675072_2_alg».proof.Proof.Gen.Kernel
import proofs.«133165_j58746562675072_2_alg».proof.Proof.Gen.Kernel.Skeleton
import proofs.«133165_j58746562675072_2_alg».proof.Proof.Gen.Kernel.Launch
import proofs.«133165_j58746562675072_2_alg».proof.Proof.Gen.Kernel.Points
import proofs.«133165_j58746562675072_2_alg».proof.Proof.Gen.Kernel.Frame
import proofs.«133165_j58746562675072_2_alg».proof.Proof.Gen.KernelIdeal
import proofs.«133165_j58746562675072_2_alg».proof.Proof.Gen.KernelIdeal.Skeleton
import proofs.«133165_j58746562675072_2_alg».proof.Proof.Gen.KernelIdeal.Launch
import proofs.«133165_j58746562675072_2_alg».proof.Proof.Gen.KernelIdeal.Points
import proofs.«133165_j58746562675072_2_alg».proof.Proof.Gen.KernelIdeal.Frame
import proofs.«133165_j58746562675072_2_alg».proof.Proof.Gen.KernelIdeal.Value
import proofs.«133165_j58746562675072_2_alg».proof.Proof.Gen.ReferenceIdeal
import proofs.«133165_j58746562675072_2_alg».proof.Proof.Gen.Pre_finite_inputs
import proofs.«133165_j58746562675072_2_alg».proof.Proof.KernelArray
import proofs.«133165_j58746562675072_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the result function of the argument: the kernel's output array (the blocks' tiling) and
    the reference's result (its composed term read at an index), from arguments that agree. -/
theorem algebraic : Cert.algebraic_KernelIdeal_ReferenceIdeal := by
  intro m ρ m' ρ' _ hagree
  refine ⟨fun c => Cert.SinCosPairs.result (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨?_, (h c).2⟩)
    (Cert.ReferenceIdeal.RefRun.run (F := Ideal) m' ρ')
  rw [(h c).1, Cert.ReferenceIdeal.RefValue.refOut_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
